-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S1024x1024 : Shape := ⟨2, ![1024, 1024]⟩

abbrev nBuf : Space → Nat
  | .hbm => 14
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  bcast_S_S4096x4096 : S_.BroadcastsInDim S4096x4096 (![] : Fin 0 → Fin S4096x4096.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.TileStep.lean ====
/-
  One grid point's arithmetic, read at a place of the tile.

  At every grid point the body holds a 1024 × 1024 tile `a` of the activations (rows `p`, positions `k` along the
  contracted axis), a 1024 × 1024 tile `b` of the binarized weights (output channels `q`, positions `k`) and the
  accumulator tile `acc`; it leaves `acc + a · bᵀ`.  On the extended reals the tile product into the zero accumulator
  is the plain sum of products, so at the place `(p, q)` the point leaves

      acc (p, q) + ∑ k < 1024, a (p, k) * b (q, k).

  The two operands are contracted along their SECOND axes (the weights are stored channel-major, so no transpose is
  formed): the left factor is read at `(p, k)`, the right one at `(q, k)`.
-/
import proofs.«121136_j12635793784935_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.TileSum

open Cert.KernelIdeal Cert.KernelIdeal.Gen Idealize.ShloMosaic Idealize.ShloMosaic.ValueIdx

/-- The left operand's row coordinate is the output's row. -/
theorem lhs_row (y : S1024x1024.Idx) (q : dot_S1024x1024_S1024x1024_S1024x1024_1_1_0_0_n_n.contr.Idx) :
    (dot_S1024x1024_S1024x1024_S1024x1024_1_1_0_0_n_n.lhsIdx y q 0).val = (y 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column coordinate is the contraction position. -/
theorem lhs_pos (y : S1024x1024.Idx) (q : dot_S1024x1024_S1024x1024_S1024x1024_1_1_0_0_n_n.contr.Idx) :
    (dot_S1024x1024_S1024x1024_S1024x1024_1_1_0_0_n_n.lhsIdx y q 1).val = (q ⟨0, by decide⟩).val :=
  dot_S1024x1024_S1024x1024_S1024x1024_1_1_0_0_n_n.lhsIdx_val_of_single rfl y q

/-- The right operand's row coordinate is the output's column (the output channel). -/
theorem rhs_row (y : S1024x1024.Idx) (q : dot_S1024x1024_S1024x1024_S1024x1024_1_1_0_0_n_n.contr.Idx) :
    (dot_S1024x1024_S1024x1024_S1024x1024_1_1_0_0_n_n.rhsIdx y q 0).val = (y 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column coordinate is the contraction position. -/
theorem rhs_pos (y : S1024x1024.Idx) (q : dot_S1024x1024_S1024x1024_S1024x1024_1_1_0_0_n_n.contr.Idx) :
    (dot_S1024x1024_S1024x1024_S1024x1024_1_1_0_0_n_n.rhsIdx y q 1).val = (q ⟨0, by decide⟩).val :=
  dot_S1024x1024_S1024x1024_S1024x1024_1_1_0_0_n_n.rhsIdx_val_of_single rfl y q

/-- The tile product into the zero accumulator, at a place: the sum over the 1024 contraction positions. -/
theorem tile_product (a b : FVec Ideal S1024x1024 .bf16) (y : S1024x1024.Idx) :
    FloatOps.matmul dot_S1024x1024_S1024x1024_S1024x1024_1_1_0_0_n_n none a b (constant S1024x1024 .f32 0x00000000#32) y
      = ∑ k : Fin 1024, a (ix2 (y 0) k) * b (ix2 (y 1) k) := by
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx y ((contrEquiv1 dot_S1024x1024_S1024x1024_S1024x1024_1_1_0_0_n_n 1024 rfl rfl).symm k) = ix2 (y 0) k :=
    funext fun d => Fin.ext (by
      match d with
      | ⟨0, _⟩ => exact lhs_row _ _
      | ⟨1, _⟩ => exact (lhs_pos _ _).trans hk)
  have er : dot_S1024x1024_S1024x1024_S1024x1024_1_1_0_0_n_n.rhsIdx y ((contrEquiv1 dot_S1024x1024_S1024x1024_S1024x1024_1_1_0_0_n_n 1024 rfl rfl).symm k) = ix2 (y 1) k :=
    funext fun d => Fin.ext (by
      match d with
      | ⟨0, _⟩ => exact rhs_row _ _
      | ⟨1, _⟩ => exact (rhs_pos _ _).trans hk)
  rw [el, er]
  rfl

/-- What a grid point leaves in the accumulator tile, at a place: the accumulator there plus the tile product there. -/
theorem tile_step (a b : Vec Ideal S1024x1024 .bf16) (acc : Vec Ideal S1024x1024 .f32) (y : S1024x1024.Idx) :
    k0_pay2 (F := Ideal) a b acc y = acc y + ∑ k : Fin 1024, a (ix2 (y 0) k) * b (ix2 (y 1) k) := by
  unfold k0_pay2
  simp only [shapeCast_self]
  exact congrArg (acc y + ·) (tile_product a b y)

/-- The tile a run of points starts from is the zero tile. -/
theorem tile_zero (y : S1024x1024.Idx) : k0_pay1 (F := Ideal) y = 0 := by
  unfold k0_pay1
  exact Ideal.ofBits_zero_f32

end Cert.KernelIdeal.TileSum

end
-- ==== Proof.LibBlockSum.lean ====
/-
  A finite sum taken block by block.  A sum of `A * B` terms indexed by the naturals below `A * B` is the sum, over
  the `A` consecutive blocks of length `B`, of each block's sum: term `B * s + k` is the `k`-th term of block `s`.
  Only commutativity and associativity of the addition are used, so the law holds in any commutative additive
  monoid — in particular on the extended reals, where no finiteness of the terms is needed.
-/
import Mathlib.Algebra.BigOperators.Fin
import Mathlib.Algebra.BigOperators.Intervals

namespace BlockSum

open Finset

/-- Over `Finset.range`: the `A` block sums of length `B` add up to the sum of the first `A * B` terms. -/
theorem sum_range_blocks {β : Type*} [AddCommMonoid β] (B : ℕ) (f : ℕ → β) :
    ∀ A : ℕ, ∑ s ∈ range A, ∑ k ∈ range B, f (B * s + k) = ∑ j ∈ range (A * B), f j
  | 0 => by simp
  | A + 1 => by
    rw [sum_range_succ, sum_range_blocks B f A, Nat.succ_mul, sum_range_add, Nat.mul_comm B A]

/-- The same with the position inside a block and the position in the whole sum ranging over `Fin`: the form in which
    a sum over a contracted axis of length `A * B`, split into `A` tiles of length `B`, is met. -/
theorem sum_fin_blocks {β : Type*} [AddCommMonoid β] (A B : ℕ) (f : ℕ → β) :
    ∑ s ∈ range A, ∑ k : Fin B, f (B * s + k.val) = ∑ j : Fin (A * B), f j.val := by
  rw [Fin.sum_univ_eq_sum_range (fun j => f j) (A * B), ← sum_range_blocks B f A]
  exact sum_congr rfl fun s _ => Fin.sum_univ_eq_sum_range (fun k => f (B * s + k)) B

end BlockSum
-- ==== Proof.KernelAtIndex.lean ====
/-
  The kernel's output array, entry by entry.

  The grid is 8 × 4 × 4: row tile `i`, output-channel tile `j`, and `s`, the tile along the contracted axis, which
  moves fastest.  Grid point `t = 16 i + 4 j + s` reads the activations' tile `(i, s)` and the binarized weights' tile
  `(j, s)`; the four consecutive points `4 r … 4 r + 3` with `r = 4 i + j` work on ONE output tile `(i, j)`: the first
  starts from the zero tile, each adds its tile product, the last one's tile is written back.

  So the entry `(n, o)` of the output, which lies in the output tile `(n / 1024, o / 1024)` at the place
  `(n % 1024, o % 1024)`, ends as

      0 + ∑ s < 4, ∑ k < 1024, x (n, 1024 s + k) * b (o, 1024 s + k)

  where `x` and `b` are the two arrays the region is handed.  Taking the four blocks of the contracted axis together
  (a finite sum regrouped: addition on the extended reals is commutative and associative, nothing more is used) this is
  the full sum over the 4096 positions, `∑ j < 4096, x (n, j) * b (o, j)`.

  The two arrays the region is handed are what the host operations before it compute from the arguments: `x` is the
  activations with their format narrowed, which on the extended reals changes nothing; `b` is the sign of the weights
  clamped to [-1, 1], likewise narrowed.
-/
import proofs.«121136_j12635793784935_2_alg».proof.Proof.Gen.KernelIdeal.Value
import proofs.«121136_j12635793784935_2_alg».proof.Proof.TileStep
import proofs.«121136_j12635793784935_2_alg».proof.Proof.LibBlockSum
import Idealize.ShloMosaic.Lib.StableHlo.Run

noncomputable section

namespace Cert.KernelIdeal.TileSum

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The arrays and tiles as functions into the extended reals -/

/-- The activations' array as the region is handed it. -/
abbrev actArr (c : Dev nD) : S8192x4096.Idx → EReal := V m c main_v0
/-- The binarized weights' array as the region is handed it. -/
abbrev wtArr (c : Dev nD) : S4096x4096.Idx → EReal := V m c main_v3
/-- The activations' tile at a grid point. -/
abbrev actTileAt (c : Dev nD) (t : Fin cfg0.N) : S1024x1024.Idx → EReal := iblk m c 0 t
/-- The binarized weights' tile at a grid point. -/
abbrev wtTileAt (c : Dev nD) (t : Fin cfg0.N) : S1024x1024.Idx → EReal := iblk m c 1 t
/-- The output array the run leaves. -/
abbrev outArr (c : Dev nD) : S8192x4096.Idx → EReal := Value.G2 (F := Ideal) m c

/-! ## Which tiles a grid point reads -/

/-- Point `t = 16 i + 4 j + s` reads the activations' tile `(i, s)` and the weights' tile `(j, s)`. -/
theorem tiles_of_point : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4 :=
  (by decide +kernel : ∀ t : Fin grid0.N, _)

/-- The activations' tile at point `t`, at the place `y`, is the activations' array at the entry `I` whose row is
    `1024 (t / 16) + y₀` and whose position is `1024 (t % 4) + y₁`. -/
theorem act_tile (c : Dev nD) (t : Fin cfg0.N) (y : S1024x1024.Idx) (I : S8192x4096.Idx)
    (h0 : (I 0).val = t.val / 16 * 1024 + (y 0).val) (h1 : (I 1).val = t.val % 4 * 1024 + (y 1).val) :
    actTileAt m c t y = actArr m c I := by
  obtain ⟨e0, e1, -, -⟩ := tiles_of_point t
  show V m c main_v0 (((cfg0.win 0).blk t).view.emb y) = V m c main_v0 I
  refine congrArg (V m c main_v0) (funext fun a => Fin.ext ?_)
  match a with
  | ⟨0, _⟩ =>
    show win0_0.index t (0 : Fin 2) * 1024 + 1 * (y 0).val = (I 0).val
    rw [e0, h0]; omega
  | ⟨1, _⟩ =>
    show win0_0.index t (1 : Fin 2) * 1024 + 1 * (y 1).val = (I 1).val
    rw [e1, h1]; omega

/-- The weights' tile at point `t`, at the place `y`, is the binarized weights' array at the entry `I` whose channel
    is `1024 (t / 4 % 4) + y₀` and whose position is `1024 (t % 4) + y₁`. -/
theorem wt_tile (c : Dev nD) (t : Fin cfg0.N) (y : S1024x1024.Idx) (I : S4096x4096.Idx)
    (h0 : (I 0).val = t.val / 4 % 4 * 1024 + (y 0).val) (h1 : (I 1).val = t.val % 4 * 1024 + (y 1).val) :
    wtTileAt m c t y = wtArr m c I := by
  obtain ⟨-, -, e0, e1⟩ := tiles_of_point t
  show V m c main_v3 (((cfg0.win 1).blk t).view.emb y) = V m c main_v3 I
  refine congrArg (V m c main_v3) (funext fun a => Fin.ext ?_)
  match a with
  | ⟨0, _⟩ =>
    show win0_1.index t (0 : Fin 2) * 1024 + 1 * (y 0).val = (I 0).val
    rw [e0, h0]; omega
  | ⟨1, _⟩ =>
    show win0_1.index t (1 : Fin 2) * 1024 + 1 * (y 1).val = (I 1).val
    rw [e1, h1]; omega

/-! ## The two arrays the region is handed, from the arguments -/

/-- The weights binarized: the sign of the weights clamped to [-1, 1]. -/
def binarized (w : FVec Ideal S4096x4096 .f32) : FVec Ideal S4096x4096 .f32 :=
  Host.sign (minimumf (broadcastInDim S4096x4096 ![] bcast_S_S4096x4096 (id (constant (F := Ideal) S_ .f32 0x3F800000#32)))
    (maximumf (broadcastInDim S4096x4096 ![] bcast_S_S4096x4096 (id (constant (F := Ideal) S_ .f32 0xBF800000#32))) w))

/-- The activations the region is handed are the argument's: narrowing the format changes nothing here. -/
theorem handed_act (c : Dev nD) :
    actArr m c = m ((c : Thread nD τ).loc main_arg0) := by
  dsimp only [actArr, V]
  simp only [hostOps0, hostOps0_1, hostOps0_2, List.flatten_cons, List.flatten_nil, List.append_nil, List.cons_append,
    List.nil_append]
  after_results
  rfl

/-- The weights the region is handed are the argument's, binarized. -/
theorem handed_wt (c : Dev nD) :
    wtArr m c = binarized (m ((c : Thread nD τ).loc main_arg1)) := by
  dsimp only [wtArr, V]
  simp only [hostOps0, hostOps0_1, hostOps0_2, List.flatten_cons, List.flatten_nil, List.append_nil, List.cons_append,
    List.nil_append]
  after_results
  rfl

/-! ## One output entry -/

/-- What grid point `n` adds at the place `y` of its output tile: its tile product there. -/
def pointTerm (c : Dev nD) (n : ℕ) (y : S1024x1024.Idx) : EReal :=
  if h : n < cfg0.N then
    ∑ k : Fin 1024, actTileAt m c ⟨n, h⟩ (ix2 (y 0) k) * wtTileAt m c ⟨n, h⟩ (ix2 (y 1) k)
  else 0

/-- The product at position `j` of the contracted axis for the output entry `i` (zero past the axis's end, so that it
    is a function of every natural). -/
def posTerm (c : Dev nD) (i : S8192x4096.Idx) (j : ℕ) : EReal :=
  if h : j < 4096 then
    actArr m c (ix2 (n0 := 8192) (n1 := 4096) (i 0) ⟨j, h⟩) * wtArr m c (ix2 (n0 := 4096) (n1 := 4096) (i 1) ⟨j, h⟩)
  else 0

/-- THE OUTPUT ENTRY: the array the run leaves, at the entry `i = (n, o)`, is the sum over all 4096 positions of the
    products of row `n` of the activations with row `o` of the binarized weights, as the region is handed them. -/
theorem G2_apply (c : Dev nD) (i : S8192x4096.Idx) :
    outArr m c i
      = ∑ j : Fin 4096, actArr m c (ix2 (n0 := 8192) (n1 := 4096) (i 0) j)
          * wtArr m c (ix2 (n0 := 4096) (n1 := 4096) (i 1) j) := by
  have hi0 : (i 0).val < 8192 := (i 0).isLt
  have hi1 : (i 1).val < 4096 := (i 1).isLt
  have hN : cfg0.N = 128 := N_0
  have hr : Value.run2Of i = 4 * ((i 0).val / 1024 - 0) + 1 * ((i 1).val / 1024 - 0) := rfl
  have hlt : 4 * Value.run2Of i + 3 < cfg0.N := by rw [hN, hr]; omega
  -- the fold of the four points is the zero tile plus the four points' tile products
  have ha : ∀ (h : 4 * Value.run2Of i < cfg0.N) (y : S1024x1024.Idx),
      Value.reset2 m c (4 * Value.run2Of i) h y = (fun _ => (0 : EReal)) y + pointTerm m c (4 * Value.run2Of i) y := by
    intro h y
    unfold Value.reset2
    refine (tile_step _ _ _ y).trans ?_
    rw [tile_zero]
    unfold pointTerm
    rw [dif_pos h]
  have hg : ∀ (n : ℕ) (h : n < cfg0.N) (acc : S1024x1024.Idx → EReal) (y : S1024x1024.Idx),
      4 * Value.run2Of i < n → n ≤ 4 * Value.run2Of i + 3 →
      Value.step2 m c n h acc y = acc y + pointTerm m c n y := by
    intro n h acc y _ _
    unfold Value.step2
    refine (tile_step _ _ _ y).trans ?_
    unfold pointTerm
    rw [dif_pos h]
  have key := Pipeline.accAt_add_apply (ι := S1024x1024.Idx) (β := EReal) (Value.reset2 m c) (Value.step2 m c)
    (fun _ => (0 : EReal)) (pointTerm m c) (4 * Value.run2Of i) 3 ha hg 3 le_rfl hlt (Value.loc2Of i)
  show Value.G2 (F := Ideal) m c i = _
  unfold Value.G2
  rw [dif_pos hlt, key, zero_add]
  -- each point's tile product is one block of the contracted axis
  have hblock : ∀ s ∈ Finset.range (3 + 1),
      pointTerm m c (4 * Value.run2Of i + s) (Value.loc2Of i) = ∑ k : Fin 1024, posTerm m c i (1024 * s + k.val) := by
    intro s hs
    have hs4 : s < 4 := by simpa using hs
    have hpt : 4 * Value.run2Of i + s < cfg0.N := by rw [hN, hr]; omega
    unfold pointTerm
    rw [dif_pos hpt]
    refine Finset.sum_congr rfl fun k _ => ?_
    have hk : k.val < 1024 := k.isLt
    have hj : 1024 * s + k.val < 4096 := by omega
    unfold posTerm
    rw [dif_pos hj]
    have e0 : ((Value.loc2Of i) 0).val = (i 0).val % 1024 := rfl
    have e1 : ((Value.loc2Of i) 1).val = (i 1).val % 1024 := rfl
    rw [act_tile m c ⟨4 * Value.run2Of i + s, hpt⟩ (ix2 ((Value.loc2Of i) 0) k)
        (ix2 (n0 := 8192) (n1 := 4096) (i 0) ⟨1024 * s + k.val, hj⟩)
        (by show (i 0).val = (4 * Value.run2Of i + s) / 16 * 1024 + ((Value.loc2Of i) 0).val; rw [e0, hr]; omega)
        (by show 1024 * s + k.val = (4 * Value.run2Of i + s) % 4 * 1024 + k.val; omega),
      wt_tile m c ⟨4 * Value.run2Of i + s, hpt⟩ (ix2 ((Value.loc2Of i) 1) k)
        (ix2 (n0 := 4096) (n1 := 4096) (i 1) ⟨1024 * s + k.val, hj⟩)
        (by show (i 1).val = (4 * Value.run2Of i + s) / 4 % 4 * 1024 + ((Value.loc2Of i) 1).val; rw [e1, hr]; omega)
        (by show 1024 * s + k.val = (4 * Value.run2Of i + s) % 4 * 1024 + k.val; omega)]
  rw [Finset.sum_congr rfl hblock]
  -- the four blocks together are the whole axis
  refine (BlockSum.sum_fin_blocks 4 1024 (posTerm m c i)).trans ?_
  refine Finset.sum_congr rfl fun j _ => ?_
  unfold posTerm
  rw [dif_pos j.isLt]

end Cert.KernelIdeal.TileSum

end
-- ==== Proof.ReferenceAtIndex.lean ====
/-
  The reference's result, entry by entry.

  The reference clamps the weights to [-1, 1], takes their sign, and contracts the activations with the binarized
  weights along the second axis of both (the sum over `i` of `x[n, i] * b[o, i]`: the weights are channel-major and no
  transpose is formed).  On the extended reals the contraction is the plain sum of products, so the entry `(n, o)` of the
  result is `∑ j < 4096, x (n, j) * b (o, j)`.
-/
import proofs.«121136_j12635793784935_2_alg».proof.Proof.Gen.ReferenceIdeal.Read

noncomputable section

namespace Cert.ReferenceIdeal.RowSum

open Cert.ReferenceIdeal Cert.ReferenceIdeal.Gen Idealize.ShloMosaic Idealize.ShloMosaic.ValueIdx

/-- The weights binarized: the sign of the weights clamped to [-1, 1]. -/
def binarized (w : FVec Ideal S4096x4096 .f32) : FVec Ideal S4096x4096 .f32 :=
  Host.sign (minimumf (broadcastInDim S4096x4096 ![] bcast_S_S4096x4096 (id (constant (F := Ideal) S_ .f32 0x3F800000#32)))
    (maximumf (broadcastInDim S4096x4096 ![] bcast_S_S4096x4096 (id (constant (F := Ideal) S_ .f32 0xBF800000#32))) w))

/-- The left factor of the product at position `k` is the activations at (the entry's row, `k`). -/
theorem left_at (i : S8192x4096.Idx) (k : Fin 4096) :
    Read.lidx_main_v2 i k = ix2 (n0 := 8192) (n1 := 4096) (i 0) k :=
  funext fun a => Fin.ext (by match a with | ⟨0, _⟩ => rfl | ⟨1, _⟩ => rfl)

/-- The right factor of the product at position `k` is the binarized weights at (the entry's column, `k`). -/
theorem right_at (i : S8192x4096.Idx) (k : Fin 4096) :
    Read.ridx_main_v2 i k = ix2 (n0 := 4096) (n1 := 4096) (i 1) k :=
  funext fun a => Fin.ext (by match a with | ⟨0, _⟩ => rfl | ⟨1, _⟩ => rfl)

/-- THE RESULT ENTRY: the contraction of the activations with the binarized weights, at the entry `i = (n, o)`, is the
    sum over all 4096 positions of the products of row `n` of the activations with row `o` of the binarized weights. -/
theorem result_apply (x : FVec Ideal S8192x4096 .f32) (w : FVec Ideal S4096x4096 .f32) (i : S8192x4096.Idx) :
    Host.dotGeneral dot_S8192x4096_S4096x4096_S8192x4096_1_1_0_0_n_n none x (binarized w) i
      = ∑ j : Fin 4096, x (ix2 (n0 := 8192) (n1 := 4096) (i 0) j) * binarized w (ix2 (n0 := 4096) (n1 := 4096) (i 1) j) := by
  show Read.val_main_v2 (F := Ideal) x w i = _
  rw [Read.val_main_v2_apply]
  refine Finset.sum_congr rfl fun k _ => ?_
  rw [left_at, right_at]
  rfl

end Cert.ReferenceIdeal.RowSum

end
-- ==== Proof.lean ====
/-
  A binarized linear layer: `out = x · sign(clip(w, -1, 1))ᵀ` for activations `x` of shape [8192, 4096] and weights `w`
  of shape [4096, 4096] (output channels × input channels).

  Both programs binarize the weights on the host in the same way — clamp to [-1, 1], then take the sign — and both
  contract along the input-channel axis of the two operands, so entry `(n, o)` of either result is built from the
  products `x (n, j) * b (o, j)`, `j < 4096`, with `b` the binarized weights.  They differ in two ways only.

  * The kernel narrows the format of `x` and `b` before the contraction.  On the extended reals a change of format is
    the identity.
  * The reference takes the sum over all 4096 positions at once; the kernel tiles the output in 1024 × 1024 tiles and
    the contracted axis in four blocks of 1024, and for each output tile starts from the zero tile and adds the four
    blocks' tile products one grid point after the other.  So the kernel's entry is
    `0 + ∑ s < 4, ∑ k < 1024, x (n, 1024 s + k) * b (o, 1024 s + k)`, a regrouping of the reference's sum.  Addition on
    the extended reals is commutative and associative, which is all a regrouping of a finite sum needs; no finiteness
    of the inputs enters, and the precondition is never opened.

  The modules: `LibBlockSum` (a finite sum taken block by block), `TileStep` (one grid point's arithmetic at a place
  of the tile), `KernelAtIndex` (the kernel's output array entry by entry, and the two arrays the region is handed as
  functions of the arguments), `ReferenceAtIndex` (the reference's result entry by entry).  Here the two entries are
  set side by side.  Nothing was rewritten when the kernel was idealized, so that claim is trivial; each frame claim is
  the corresponding run with its result dropped.
-/
import proofs.«121136_j12635793784935_2_alg».proof.Defs
import proofs.«121136_j12635793784935_2_alg».proof.Proof.Gen.Kernel.Frame
import proofs.«121136_j12635793784935_2_alg».proof.Proof.Gen.KernelIdeal.Value
import proofs.«121136_j12635793784935_2_alg».proof.Proof.Gen.Pre_finite_inputs
import proofs.«121136_j12635793784935_2_alg».proof.Proof.Gen.ReferenceIdeal.Run
import proofs.«121136_j12635793784935_2_alg».proof.Proof.KernelAtIndex
import proofs.«121136_j12635793784935_2_alg».proof.Proof.ReferenceAtIndex
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on the two arguments, the kernel's output array and the reference's result are equal
    entry by entry: at `(n, o)` both are `∑ j < 4096, x (n, j) * b (o, j)` over the same activations `x` and the same
    binarized weights `b`. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  funext i
  refine (Cert.ReferenceIdeal.RowSum.result_apply _ _ i).trans ?_
  refine Eq.trans ?_ (Cert.KernelIdeal.TileSum.G2_apply m c i).symm
  rw [Cert.KernelIdeal.TileSum.handed_act, Cert.KernelIdeal.TileSum.handed_wt]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
